-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S1x8192 : Shape := ⟨2, ![1, 8192]⟩
abbrev S8192x128 : Shape := ⟨2, ![8192, 128]⟩
abbrev S128 : Shape := ⟨1, ![128]⟩
abbrev S128x8192 : Shape := ⟨2, ![128, 8192]⟩
abbrev S8192 : Shape := ⟨1, ![8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S1x8192 : S_.BroadcastsInDim S1x8192 (![] : Fin 0 → Fin S1x8192.rank)
  reducesTo_S1x8192_S_d0_1 : S1x8192.ReducesTo [0, 1] S_
  bcast_S_S8192x128 : S_.BroadcastsInDim S8192x128 (![] : Fin 0 → Fin S8192x128.rank)
  reducesTo_S8192x128_S_d0_1 : S8192x128.ReducesTo [0, 1] S_
  bcast_S_S128 : S_.BroadcastsInDim S128 (![] : Fin 0 → Fin S128.rank)
  reducesTo_S128_S_d0 : S128.ReducesTo [0] S_
  bcast_S_S128x8192 : S_.BroadcastsInDim S128x8192 (![] : Fin 0 → Fin S128x8192.rank)
  reducesTo_S128x8192_S_d0_1 : S128x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S128 .f32) (main_arg5 : FVec F S128x8192 .f32) (main_arg6 : FVec F S8192 .f32) (main_v13 : IVec S_ 1) (main_v16 : IVec S8192x128 1) : IVec S_ 1 :=
  let main_c_5 : IVec S_ 1 := constantI S_ 1 1#1
  let main_v17 : IVec S_ 1 := (fun x v => Host.reduce IntOp.andi x v reducesTo_S8192x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x8192 .f32 := Host.absf main_arg5
  let main_cst_8 : FVec F S_ .f32 := constant S_ .f32 0x7F800000#32
  let main_v25 : FVec F S128x8192 .f32 := broadcastInDim S128x8192 ![] bcast_S_S128x8192 main_cst_8
  let main_v26 : IVec S128x8192 1 := cmpf .olt main_v24 main_v25
  let main_c_9 : IVec S_ 1 := constantI S_ 1 1#1
  let main_v27 : IVec S_ 1 := (fun x v => Host.reduce IntOp.andi x v reducesTo_S128x8192_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S4096x8192 .f32) (main_arg1 : FVec F S4096x8192 .f32) (main_arg2 : FVec F S1x8192 .f32) (main_arg3 : FVec F S8192x128 .f32) (main_arg4 : FVec F S128 .f32) (main_arg5 : FVec F S128x8192 .f32) (main_arg6 : FVec F S8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S1x8192 .f32 := Host.absf main_arg2
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_c_3 : IVec S_ 1 := constantI S_ 1 1#1
  let main_v12 : IVec S_ 1 := (fun x v => Host.reduce IntOp.andi x v reducesTo_S1x8192_S_d0_1 h_S_) main_v11 main_c_3
  let main_v13 : IVec S_ 1 := andi main_v8 main_v12
  let main_v14 : FVec F S8192x128 .f32 := Host.absf main_arg3
  let main_cst_4 : FVec F S_ .f32 := constant S_ .f32 0x7F800000#32
  let main_v15 : FVec F S8192x128 .f32 := broadcastInDim S8192x128 ![] bcast_S_S8192x128 main_cst_4
  let main_v16 : IVec S8192x128 1 := cmpf .olt main_v14 main_v15
  fn_part1 (F := F) main_arg4 main_arg5 main_arg6 main_v13 main_v16
-- ==== Kernel.lean ====
abbrev S4096x8192 : Shape := ⟨2, ![4096, 8192]⟩
abbrev S1x8192 : Shape := ⟨2, ![1, 8192]⟩
abbrev S8192x128 : Shape := ⟨2, ![8192, 128]⟩
abbrev S128 : Shape := ⟨1, ![128]⟩
abbrev S128x8192 : Shape := ⟨2, ![128, 8192]⟩
abbrev S8192 : Shape := ⟨1, ![8192]⟩
abbrev S1x128 : Shape := ⟨2, ![1, 128]⟩
abbrev S256x8192 : Shape := ⟨2, ![256, 8192]⟩
abbrev S256x128 : Shape := ⟨2, ![256, 128]⟩

abbrev nBuf : Space → Nat
  | .hbm => 10
  | .vmem => 11
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S1x8192, .f32⟩
  | .hbm, ⟨3, _⟩ => ⟨S8192x128, .f32⟩
  | .hbm, ⟨4, _⟩ => ⟨S128, .f32⟩
  | .hbm, ⟨5, _⟩ => ⟨S128x8192, .f32⟩
  | .hbm, ⟨6, _⟩ => ⟨S8192, .f32⟩
  | .hbm, ⟨7, _⟩ => ⟨S1x128, .f32⟩
  | .hbm, ⟨8, _⟩ => ⟨S1x8192, .f32⟩
  | .hbm, ⟨9, _⟩ => ⟨S4096x8192, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | .local _ .vmem, ⟨4, _⟩ => ⟨S1x8192, .f32⟩
  | .local _ .vmem, ⟨5, _⟩ => ⟨S8192x128, .f32⟩
  | .local _ .vmem, ⟨6, _⟩ => ⟨S1x128, .f32⟩
  | .local _ .vmem, ⟨7, _⟩ => ⟨S128x8192, .f32⟩
  | .local _ .vmem, ⟨8, _⟩ => ⟨S1x8192, .f32⟩
  | .local _ .vmem, ⟨9, _⟩ => ⟨S256x8192, .f32⟩
  | .local _ .vmem, ⟨10, _⟩ => ⟨S256x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128_S1x128 : S128.ShapeCasts S1x128
  shapeCasts_S8192_S1x8192 : S8192.ShapeCasts S1x8192
  inb_S256x8192_S256x8192_0_0 : ∀ a, (![0, 0] : Fin 2 → Nat) a + S256x8192.size a ≤ S256x8192.size a
  h_S256x8192 : 0 < S256x8192.numel
  inb_S1x8192_S1x8192_0_0 : ∀ a, (![0, 0] : Fin 2 → Nat) a + S1x8192.size a ≤ S1x8192.size a
  h_S1x8192 : 0 < S1x8192.numel
  broadcasts_S1x8192_S256x8192 : S1x8192.Broadcasts S256x8192
  inb_S8192x128_S8192x128_0_0 : ∀ a, (![0, 0] : Fin 2 → Nat) a + S8192x128.size a ≤ S8192x128.size a
  h_S8192x128 : 0 < S8192x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S128x8192_S128x8192_0_0 : ∀ a, (![0, 0] : Fin 2 → Nat) a + S128x8192.size a ≤ S128x8192.size a
  h_S128x8192 : 0 < S128x8192.numel
  shapeCasts_S1x8192_S1x8192 : S1x8192.ShapeCasts S1x8192
  dot_S256x8192_S8192x128_S256x128_1_0_0_1_n_n_wf : DotDims.WF S256x8192 S8192x128 S256x128 [1] [0] [0] [1] [] []
  dot_S256x128_S128x8192_S256x8192_1_0_0_1_n_n_wf : DotDims.WF S256x128 S128x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S4096x8192.size a
  hwx0_1 : ∀ i : grid0.Coords, EltTy.bits .f32 = 32 ∨ (Rect.block (s := S4096x8192) S256x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x128.size a
  hwx0_3 : ∀ i : grid0.Coords, EltTy.bits .f32 = 32 ∨ (Rect.block (s := S8192x128) S8192x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x8192.size a ≤ S128x8192.size a
  hwx0_5 : ∀ i : grid0.Coords, EltTy.bits .f32 = 32 ∨ (Rect.block (s := S128x8192) S128x8192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8192.size a ≤ S1x8192.size a
  hwx0_6 : ∀ i : grid0.Coords, EltTy.bits .f32 = 32 ∨ (Rect.block (s := S1x8192) S1x8192.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x8192.size a ≤ S4096x8192.size a
  hwx0_7 : ∀ i : grid0.Coords, EltTy.bits .f32 = 32 ∨ (Rect.block (s := S4096x8192) S256x8192.size (cc0_transform_7 i) (hinb0_7 i)).WholeWords (EltTy.packing .f32)

variable [Facts₀]

def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S256x128_S128x8192_S256x8192_1_0_0_1_n_n : DotDims S256x128 S128x8192 S256x8192 where
  lhsContracting := [1]
  rhsContracting := [0]
  lhsNonContracting := [0]
  rhsNonContracting := [1]
  lhsBatch := []
  rhsBatch := []
  wf := dot_S256x128_S128x8192_S256x8192_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8192x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x8192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S256x8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S1x8192 : Shape := ⟨2, ![1, 8192]⟩
abbrev S8192x128 : Shape := ⟨2, ![8192, 128]⟩
abbrev S128 : Shape := ⟨1, ![128]⟩
abbrev S128x8192 : Shape := ⟨2, ![128, 8192]⟩
abbrev S8192 : Shape := ⟨1, ![8192]⟩
abbrev S4096x128 : Shape := ⟨2, ![4096, 128]⟩
abbrev S1x128 : Shape := ⟨2, ![1, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S1x8192, .f32⟩
  | .hbm, ⟨3, _⟩ => ⟨S8192x128, .f32⟩
  | .hbm, ⟨4, _⟩ => ⟨S128, .f32⟩
  | .hbm, ⟨5, _⟩ => ⟨S128x8192, .f32⟩
  | .hbm, ⟨6, _⟩ => ⟨S8192, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x128, .f32⟩
  | .hbm, ⟨11, _⟩ => ⟨S1x128, .f32⟩
  | .hbm, ⟨12, _⟩ => ⟨S4096x128, .f32⟩
  | .hbm, ⟨13, _⟩ => ⟨S4096x128, .f32⟩
  | .hbm, ⟨14, _⟩ => ⟨S_, .f32⟩
  | .hbm, ⟨15, _⟩ => ⟨S4096x128, .f32⟩
  | .hbm, ⟨16, _⟩ => ⟨S4096x128, .f32⟩
  | .hbm, ⟨17, _⟩ => ⟨S4096x8192, .f32⟩
  | .hbm, ⟨18, _⟩ => ⟨S1x8192, .f32⟩
  | .hbm, ⟨19, _⟩ => ⟨S4096x8192, .f32⟩
  | .hbm, ⟨20, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  bcast_S1x8192_S4096x8192_0_1 : S1x8192.BroadcastsInDim S4096x8192 (![0, 1] : Fin 2 → Fin S4096x8192.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S8192_S1x8192_1 : S8192.BroadcastsInDim S1x8192 (![1] : Fin 1 → Fin S1x8192.rank)
  dot_S4096x8192_S8192x128_S4096x128_1_0_0_1_n_n_wf : DotDims.WF S4096x8192 S8192x128 S4096x128 [1] [0] [0] [1] [] []
  dot_S4096x128_S128x8192_S4096x8192_1_0_0_1_n_n_wf : DotDims.WF S4096x128 S128x8192 S4096x8192 [1] [0] [0] [1] [] []

variable [Facts₀]

def dot_S4096x8192_S8192x128_S4096x128_1_0_0_1_n_n : DotDims S4096x8192 S8192x128 S4096x128 where
  lhsContracting := [1]
  rhsContracting := [0]
  lhsNonContracting := [0]
  rhsNonContracting := [1]
  lhsBatch := []
  rhsBatch := []
  wf := dot_S4096x8192_S8192x128_S4096x128_1_0_0_1_n_n_wf
def dot_S4096x128_S128x8192_S4096x8192_1_0_0_1_n_n : DotDims S4096x128 S128x8192 S4096x8192 where
  lhsContracting := [1]
  rhsContracting := [0]
  lhsNonContracting := [0]
  rhsNonContracting := [1]
  lhsBatch := []
  rhsBatch := []
  wf := dot_S4096x128_S128x8192_S4096x8192_1_0_0_1_n_n_wf

class Facts : Prop extends Facts₀ where

variable [Facts]
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.RowSpec.lean ====
/-
  One row of a gated autoencoder, as exact arithmetic on the extended reals.

  A row `x` of the batch is first gated, `x + g · v` (with `v` the matching row of a second input and `g` one shared
  row of gains), then encoded: hidden unit `j` is `max (Σₖ (xₖ + gₖ · vₖ) · Wenc(k, j) + benc(j)) 0`; then decoded:
  output column `q` is `Σⱼ hidden(j) · Wdec(j, q) + bdec(q)`. Every row of the batch is treated alike and
  independently of the others, so the whole batch is this one row function applied to each row.
-/
import Idealize.ShloMosaic.Lib.ValueIdx
import Idealize.ShloMosaic.PureOps.Ideal

noncomputable section

namespace Cert.GatedAutoencoder

open Idealize.ShloMosaic Idealize.ShloMosaic.ValueIdx

/-- Hidden unit `j` of one row: the gated row `x + g · v` against column `j` of the encoder, plus the encoder's
    bias, clamped below at zero (the zero being the all-zero float word, which denotes the real `0`). -/
def hiddenUnit (xr vr : Fin 8192 → EReal) (g : FVec Ideal ⟨2, ![1, 8192]⟩ .f32) (Wenc : FVec Ideal ⟨2, ![8192, 128]⟩ .f32)
    (benc : Fin 128 → EReal) (j : Fin 128) : EReal :=
  max ((∑ k : Fin 8192, (xr k + g (ix2 (0 : Fin 1) k) * vr k) * Wenc (ix2 k j)) + benc j) (Ideal.ofBits .f32 0x00000000#32)

/-- Output column `q` of one row: the row's hidden units against column `q` of the decoder, plus the decoder's bias. -/
def outRow (xr vr : Fin 8192 → EReal) (g : FVec Ideal ⟨2, ![1, 8192]⟩ .f32) (Wenc : FVec Ideal ⟨2, ![8192, 128]⟩ .f32)
    (benc : Fin 128 → EReal) (Wdec : FVec Ideal ⟨2, ![128, 8192]⟩ .f32) (bdec : Fin 8192 → EReal) (q : Fin 8192) : EReal :=
  (∑ j : Fin 128, hiddenUnit xr vr g Wenc benc j * Wdec (ix2 j q)) + bdec q

/-- The whole batch of 4096 rows: entry `(p, q)` is output column `q` of row `p`. -/
def batch (x v : FVec Ideal ⟨2, ![4096, 8192]⟩ .f32) (g : FVec Ideal ⟨2, ![1, 8192]⟩ .f32) (Wenc : FVec Ideal ⟨2, ![8192, 128]⟩ .f32)
    (benc : FVec Ideal ⟨1, ![128]⟩ .f32) (Wdec : FVec Ideal ⟨2, ![128, 8192]⟩ .f32) (bdec : FVec Ideal ⟨1, ![8192]⟩ .f32) :
    FVec Ideal ⟨2, ![4096, 8192]⟩ .f32 :=
  fun i => outRow (fun k => x (ix2 (i 0) k)) (fun k => v (ix2 (i 0) k)) g Wenc (fun j => benc (ix1 j)) Wdec (fun c => bdec (ix1 c)) (i 1)

/-- The batch read at an entry given by its two coordinates. -/
theorem batch_ix2 (x v : FVec Ideal ⟨2, ![4096, 8192]⟩ .f32) (g : FVec Ideal ⟨2, ![1, 8192]⟩ .f32) (Wenc : FVec Ideal ⟨2, ![8192, 128]⟩ .f32)
    (benc : FVec Ideal ⟨1, ![128]⟩ .f32) (Wdec : FVec Ideal ⟨2, ![128, 8192]⟩ .f32) (bdec : FVec Ideal ⟨1, ![8192]⟩ .f32)
    (p : Fin 4096) (q : Fin 8192) :
    batch x v g Wenc benc Wdec bdec (ix2 p q)
      = outRow (fun k => x (ix2 p k)) (fun k => v (ix2 p k)) g Wenc (fun j => benc (ix1 j)) Wdec (fun c => bdec (ix1 c)) q := rfl

end Cert.GatedAutoencoder

end
-- ==== Proof.StoredRows.lean ====
/-
  What the kernel body stores, read at an entry, at exact arithmetic.

  The body holds a block of 256 rows of `x` and of `v` and the whole of `g`, the encoder, the decoder and the two
  biases (each bias as a single row). It gates the block (`x + g · v`, the gain row repeated down the block),
  multiplies by the encoder into a zero accumulator, adds the bias row repeated down the block, clamps at zero,
  multiplies by the decoder into a zero accumulator and adds the second bias row. A matrix product into a zero
  accumulator has at entry (p, j) the sum over the contracted axis of row p times column j; a row repeated down a
  block has at entry (p, c) the row's entry c. So entry (p, q) of the stored block is output column q of the row
  function applied to row p of the two loaded blocks: no other row of the block enters it.
-/
import proofs.«177236_g13572096656070_cont_week2b_785_2_alg».proof.Proof.Gen.KernelIdeal.Skeleton
import proofs.«177236_g13572096656070_cont_week2b_785_2_alg».proof.Proof.LibDotEntry
import proofs.«177236_g13572096656070_cont_week2b_785_2_alg».proof.Proof.RowSpec
import Idealize.ShloMosaic.Lib.ValueLayout
import Idealize.ShloMosaic.Lib.Pipeline.Value

noncomputable section

namespace Cert.KernelIdeal.Stored

open Cert.KernelIdeal Cert.KernelIdeal.Gen Idealize.ShloMosaic Idealize.ShloMosaic.TcCoe Idealize.SL.Sem
open Idealize.ShloMosaic.ValueIdx Cert.GatedAutoencoder

/-! ## Where the two products' dimension numbers send an output index and a contraction index -/

/-- The encoder product contracts one axis, of extent 8192. -/
theorem enc_rank : dot_S256x8192_S8192x128_S256x128_1_0_0_1_n_n.contr.rank = 1 := rfl
theorem enc_size : dot_S256x8192_S8192x128_S256x128_1_0_0_1_n_n.contr.size ⟨0, by decide⟩ = 8192 := rfl

/-- Its left index at output (p, j) and contraction index k is (p, k); -/
theorem enc_l0 (i : S256x128.Idx) (c : dot_S256x8192_S8192x128_S256x128_1_0_0_1_n_n.contr.Idx) :
    (dot_S256x8192_S8192x128_S256x128_1_0_0_1_n_n.lhsIdx i c 0).val = (i 0).val := by
  unfold DotDims.lhsIdx
  rw [dif_neg (show ¬(0 : Fin S256x8192.rank) ∈ dot_S256x8192_S8192x128_S256x128_1_0_0_1_n_n.lhsBatch by decide), dif_pos (show (0 : Fin S256x8192.rank) ∈ dot_S256x8192_S8192x128_S256x128_1_0_0_1_n_n.lhsNonContracting by decide)]
  rfl
theorem enc_l1 (i : S256x128.Idx) (c : dot_S256x8192_S8192x128_S256x128_1_0_0_1_n_n.contr.Idx) :
    (dot_S256x8192_S8192x128_S256x128_1_0_0_1_n_n.lhsIdx i c 1).val = (c ⟨0, by decide⟩).val :=
  dot_S256x8192_S8192x128_S256x128_1_0_0_1_n_n.lhsIdx_val_of_single rfl i c
/-- and its right index is (k, j). -/
theorem enc_r0 (i : S256x128.Idx) (c : dot_S256x8192_S8192x128_S256x128_1_0_0_1_n_n.contr.Idx) :
    (dot_S256x8192_S8192x128_S256x128_1_0_0_1_n_n.rhsIdx i c 0).val = (c ⟨0, by decide⟩).val :=
  dot_S256x8192_S8192x128_S256x128_1_0_0_1_n_n.rhsIdx_val_of_single rfl i c
theorem enc_r1 (i : S256x128.Idx) (c : dot_S256x8192_S8192x128_S256x128_1_0_0_1_n_n.contr.Idx) :
    (dot_S256x8192_S8192x128_S256x128_1_0_0_1_n_n.rhsIdx i c 1).val = (i 1).val := by
  unfold DotDims.rhsIdx
  rw [dif_neg (show ¬(1 : Fin S8192x128.rank) ∈ dot_S256x8192_S8192x128_S256x128_1_0_0_1_n_n.rhsBatch by decide), dif_pos (show (1 : Fin S8192x128.rank) ∈ dot_S256x8192_S8192x128_S256x128_1_0_0_1_n_n.rhsNonContracting by decide)]
  rfl

/-- The decoder product contracts one axis, of extent 128. -/
theorem dec_rank : dot_S256x128_S128x8192_S256x8192_1_0_0_1_n_n.contr.rank = 1 := rfl
theorem dec_size : dot_S256x128_S128x8192_S256x8192_1_0_0_1_n_n.contr.size ⟨0, by decide⟩ = 128 := rfl

/-- Its left index at output (p, q) and contraction index j is (p, j); -/
theorem dec_l0 (i : S256x8192.Idx) (c : dot_S256x128_S128x8192_S256x8192_1_0_0_1_n_n.contr.Idx) :
    (dot_S256x128_S128x8192_S256x8192_1_0_0_1_n_n.lhsIdx i c 0).val = (i 0).val := by
  unfold DotDims.lhsIdx
  rw [dif_neg (show ¬(0 : Fin S256x128.rank) ∈ dot_S256x128_S128x8192_S256x8192_1_0_0_1_n_n.lhsBatch by decide), dif_pos (show (0 : Fin S256x128.rank) ∈ dot_S256x128_S128x8192_S256x8192_1_0_0_1_n_n.lhsNonContracting by decide)]
  rfl
theorem dec_l1 (i : S256x8192.Idx) (c : dot_S256x128_S128x8192_S256x8192_1_0_0_1_n_n.contr.Idx) :
    (dot_S256x128_S128x8192_S256x8192_1_0_0_1_n_n.lhsIdx i c 1).val = (c ⟨0, by decide⟩).val :=
  dot_S256x128_S128x8192_S256x8192_1_0_0_1_n_n.lhsIdx_val_of_single rfl i c
/-- and its right index is (j, q). -/
theorem dec_r0 (i : S256x8192.Idx) (c : dot_S256x128_S128x8192_S256x8192_1_0_0_1_n_n.contr.Idx) :
    (dot_S256x128_S128x8192_S256x8192_1_0_0_1_n_n.rhsIdx i c 0).val = (c ⟨0, by decide⟩).val :=
  dot_S256x128_S128x8192_S256x8192_1_0_0_1_n_n.rhsIdx_val_of_single rfl i c
theorem dec_r1 (i : S256x8192.Idx) (c : dot_S256x128_S128x8192_S256x8192_1_0_0_1_n_n.contr.Idx) :
    (dot_S256x128_S128x8192_S256x8192_1_0_0_1_n_n.rhsIdx i c 1).val = (i 1).val := by
  unfold DotDims.rhsIdx
  rw [dif_neg (show ¬(1 : Fin S128x8192.rank) ∈ dot_S256x128_S128x8192_S256x8192_1_0_0_1_n_n.rhsBatch by decide), dif_pos (show (1 : Fin S128x8192.rank) ∈ dot_S256x128_S128x8192_S256x8192_1_0_0_1_n_n.rhsNonContracting by decide)]
  rfl

/-! ## The three stages, each read at an entry -/

/-- The gated block at (p, k): `x(p, k) + g(0, k) · v(p, k)`, the gain row repeated down the block. -/
theorem gated_entry (x v : FVec Ideal S256x8192 .f32) (g : FVec Ideal S1x8192 .f32) (p : Fin 256) (k : Fin 8192) :
    addf x (mulf (broadcastTo S256x8192 g broadcasts_S1x8192_S256x8192) v) (ix2 p k)
      = x (ix2 p k) + g (ix2 (0 : Fin 1) k) * v (ix2 p k) := by
  show x (ix2 p k) + broadcastTo S256x8192 g broadcasts_S1x8192_S256x8192 (ix2 p k) * v (ix2 p k) = _
  rw [broadcastTo_1b_ab_apply g broadcasts_S1x8192_S256x8192 p k]

/-- The hidden block at (p, j), from any block `a` fed to the encoder: the product's sum over the contracted axis, plus
    the bias row's entry j, clamped at zero. -/
theorem hidden_entry (a : FVec Ideal S256x8192 .f32) (Wenc : FVec Ideal S8192x128 .f32) (benc : FVec Ideal S1x128 .f32)
    (p : Fin 256) (j : Fin 128) :
    maximumf (addf (matmul dot_S256x8192_S8192x128_S256x128_1_0_0_1_n_n none a Wenc (constant (F := Ideal) S256x128 .f32 0x00000000#32))
        (broadcastTo S256x128 (shapeCast S1x128 benc shapeCasts_S1x128_S1x128) broadcasts_S1x128_S256x128))
      (broadcast S256x128 (Scalar.ofBits (F := Ideal) .f32 0x00000000#32)) (ix2 p j)
      = max ((∑ k : Fin 8192, a (ix2 p k) * Wenc (ix2 k j)) + benc (ix2 (0 : Fin 1) j)) (Ideal.ofBits .f32 0x00000000#32) := by
  show max (matmul dot_S256x8192_S8192x128_S256x128_1_0_0_1_n_n none a Wenc (constant (F := Ideal) S256x128 .f32 0x00000000#32) (ix2 p j)
      + broadcastTo S256x128 (shapeCast S1x128 benc shapeCasts_S1x128_S1x128) broadcasts_S1x128_S256x128 (ix2 p j))
    (Ideal.ofBits .f32 0x00000000#32) = _
  rw [Cert.Lib.DotEntry.matmul_zero_ix2 dot_S256x8192_S8192x128_S256x128_1_0_0_1_n_n enc_rank enc_size enc_l0 enc_l1 enc_r0 enc_r1 a Wenc p j,
    broadcastTo_1b_ab_apply _ broadcasts_S1x128_S256x128 p j, shapeCast_self]

/-- The stored block at (p, q), from any hidden block `h` fed to the decoder: the product's sum over the contracted
    axis, plus the second bias row's entry q. -/
theorem decoded_entry (h : FVec Ideal S256x128 .f32) (Wdec : FVec Ideal S128x8192 .f32) (bdec : FVec Ideal S1x8192 .f32)
    (p : Fin 256) (q : Fin 8192) :
    addf (matmul dot_S256x128_S128x8192_S256x8192_1_0_0_1_n_n none h Wdec (constant (F := Ideal) S256x8192 .f32 0x00000000#32))
      (broadcastTo S256x8192 (shapeCast S1x8192 bdec shapeCasts_S1x8192_S1x8192) broadcasts_S1x8192_S256x8192) (ix2 p q)
      = (∑ j : Fin 128, h (ix2 p j) * Wdec (ix2 j q)) + bdec (ix2 (0 : Fin 1) q) := by
  show matmul dot_S256x128_S128x8192_S256x8192_1_0_0_1_n_n none h Wdec (constant (F := Ideal) S256x8192 .f32 0x00000000#32) (ix2 p q)
      + broadcastTo S256x8192 (shapeCast S1x8192 bdec shapeCasts_S1x8192_S1x8192) broadcasts_S1x8192_S256x8192 (ix2 p q) = _
  rw [Cert.Lib.DotEntry.matmul_zero_ix2 dot_S256x128_S128x8192_S256x8192_1_0_0_1_n_n dec_rank dec_size dec_l0 dec_l1 dec_r0 dec_r1 h Wdec p q,
    broadcastTo_1b_ab_apply _ broadcasts_S1x8192_S256x8192 p q, shapeCast_self]

/-! ## The stored block is the row function, row by row -/

/-- Entry (p, q) of what the body stores is output column q of the row function at row p of the loaded blocks of `x`
    and `v`, with the gains, the encoder, the decoder and the two bias rows as loaded. -/
theorem stored_entry (x : Vec Ideal S256x8192 .f32) (g : Vec Ideal S1x8192 .f32) (v : Vec Ideal S256x8192 .f32)
    (Wenc : Vec Ideal S8192x128 .f32) (benc : Vec Ideal S1x128 .f32) (Wdec : Vec Ideal S128x8192 .f32) (bdec : Vec Ideal S1x8192 .f32)
    (p : Fin 256) (q : Fin 8192) :
    k0_pay1 (F := Ideal) x g v Wenc benc Wdec bdec (ix2 p q)
      = outRow (fun k => x (ix2 p k)) (fun k => v (ix2 p k)) g Wenc (fun j => benc (ix2 (0 : Fin 1) j)) Wdec
          (fun c => bdec (ix2 (0 : Fin 1) c)) q := by
  unfold k0_pay1
  refine (decoded_entry _ Wdec bdec p q).trans ?_
  unfold outRow
  refine congrArg (· + bdec (ix2 (0 : Fin 1) q)) (Finset.sum_congr rfl fun j _ => congrArg (· * Wdec (ix2 j q)) ?_)
  refine (hidden_entry _ Wenc benc p j).trans ?_
  unfold hiddenUnit
  exact congrArg (fun s => max (s + benc (ix2 (0 : Fin 1) j)) (Ideal.ofBits .f32 0x00000000#32))
    (Finset.sum_congr rfl fun k _ => congrArg (· * Wenc (ix2 k j)) (gated_entry x v g p k))

/-- The same entry set against the whole batch. Suppose row `y 0` of the two loaded blocks is row `i 0` of the batch
    inputs, the gains, the encoder and the decoder are loaded whole, each loaded bias row is the bias laid out as a
    row, and `i` and `y` name the same column. Then the stored entry at `y` is the batch function's entry at `i`. -/
theorem stored_is_batch (X V : FVec Ideal S4096x8192 .f32) (G : FVec Ideal S1x8192 .f32) (We : FVec Ideal S8192x128 .f32)
    (Be : FVec Ideal S128 .f32) (Wd : FVec Ideal S128x8192 .f32) (Bd : FVec Ideal S8192 .f32)
    (x : Vec Ideal S256x8192 .f32) (g : Vec Ideal S1x8192 .f32) (v : Vec Ideal S256x8192 .f32)
    (wenc : Vec Ideal S8192x128 .f32) (benc : Vec Ideal S1x128 .f32) (wdec : Vec Ideal S128x8192 .f32) (bdec : Vec Ideal S1x8192 .f32)
    (y : S256x8192.Idx) (i : S4096x8192.Idx)
    (hcol : (i 1 : Fin 8192) = (y 1 : Fin 8192))
    (hx : ∀ k : Fin 8192, x (ix2 (y 0 : Fin 256) k) = X (ix2 (i 0 : Fin 4096) k))
    (hv : ∀ k : Fin 8192, v (ix2 (y 0 : Fin 256) k) = V (ix2 (i 0 : Fin 4096) k))
    (hg : g = G) (hwe : wenc = We) (hbe : ∀ j : Fin 128, benc (ix2 (0 : Fin 1) j) = Be (ix1 j))
    (hwd : wdec = Wd) (hbd : ∀ c : Fin 8192, bdec (ix2 (0 : Fin 1) c) = Bd (ix1 c)) :
    k0_pay1 (F := Ideal) x g v wenc benc wdec bdec y = batch X V G We Be Wd Bd i :=
  calc k0_pay1 (F := Ideal) x g v wenc benc wdec bdec y
      = k0_pay1 (F := Ideal) x g v wenc benc wdec bdec (ix2 (y 0 : Fin 256) (y 1 : Fin 8192)) := congrArg _ (eq_ix2 y)
    _ = outRow (fun k => x (ix2 (y 0 : Fin 256) k)) (fun k => v (ix2 (y 0 : Fin 256) k)) g wenc (fun j => benc (ix2 (0 : Fin 1) j)) wdec
          (fun c => bdec (ix2 (0 : Fin 1) c)) (y 1 : Fin 8192) := stored_entry x g v wenc benc wdec bdec _ _
    _ = outRow (fun k => X (ix2 (i 0 : Fin 4096) k)) (fun k => V (ix2 (i 0 : Fin 4096) k)) G We (fun j => Be (ix1 j)) Wd
          (fun c => Bd (ix1 c)) (i 1 : Fin 8192) := by
        rw [funext hx, funext hv, hg, hwe, funext hbe, hwd, funext hbd, hcol]
    _ = batch X V G We Be Wd Bd (ix2 (i 0 : Fin 4096) (i 1 : Fin 8192)) := (batch_ix2 X V G We Be Wd Bd _ _).symm
    _ = batch X V G We Be Wd Bd i := congrArg _ (eq_ix2 i).symm

end Cert.KernelIdeal.Stored

end
-- ==== Proof.BlocksToBatch.lean ====
/-
  From the blocks the grid points write back to the whole result.

  The grid has 16 points; point `t` holds rows 256·t … 256·t + 255 of `x` and of `v` and writes back the same rows
  of the result, while the gains, the encoder, the decoder and the two bias rows are held whole at every point. The
  bias rows are the two bias vectors laid out as `[1, n]` rows by the program's host code before the call. Since an entry
  of the stored block depends on its own row only, what point `t` writes back is rows 256·t … of the batch function of
  the whole arguments; row `r` of the result lies in the block of point `r / 256`, so the sixteen blocks cover the
  result, which therefore ends as the batch function of the arguments.
-/
import proofs.«177236_g13572096656070_cont_week2b_785_2_alg».proof.Proof.Gen.KernelIdeal.Value
import proofs.«177236_g13572096656070_cont_week2b_785_2_alg».proof.Proof.StoredRows
import Idealize.ShloMosaic.Lib.ValueLayout
import Idealize.ShloMosaic.Lib.StableHlo.Run

set_option maxRecDepth 16384

noncomputable section

namespace Cert.KernelIdeal.Batch

open Cert.KernelIdeal Cert.KernelIdeal.Gen Idealize.ShloMosaic Idealize.ShloMosaic.TcCoe Idealize.SL.Sem Idealize.ShloMosaic.StableHlo
open Idealize.ShloMosaic.Pipeline (Dat)
open Idealize.ShloMosaic.ValueIdx Cert.GatedAutoencoder

variable (m : (ℓ : Loc nD τ sig) → Buf (Elt Ideal) ℓ) (ρ : Dev nD → PrngReg)

/-! ## Where each window's block sits at a grid point -/

theorem hz : (![0, 0] : Fin 2 → Nat) = fun _ => 0 := funext fun a => by fin_cases a <;> rfl

/-- The blocks of `x` and `v` move down the rows with the result's block, which is block `t` at point `t`; every other
    window stays on its one whole block (decided over the 16 points). -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The two bias rows the host code lays out before the call -/

/-- The encoder's bias row, as the call finds it, is the bias vector cast to one row. -/
theorem benc_row (c : Dev nD) :
    (V m c main_v0 : S1x128.Idx → EReal) = shapeCast S1x128 (m ((c : Thread nD τ).loc main_arg4)) shapeCasts_S128_S1x128 := by
  dsimp only [Gen.V, Gen.hostOps0]; after_results; rfl

/-- The decoder's bias row likewise. -/
theorem bdec_row (c : Dev nD) :
    (V m c main_v1 : S1x8192.Idx → EReal) = shapeCast S1x8192 (m ((c : Thread nD τ).loc main_arg6)) shapeCasts_S8192_S1x8192 := by
  dsimp only [Gen.V, Gen.hostOps0]; after_results; rfl

/-! ## The blocks a point holds, read off the arrays -/

/-- Row `y 0` of the block of `x` at point `t` is the batch's row under the result's block at `y`. -/
theorem row_block0 (c : Dev nD) (t : Fin cfg0.N) (y : S256x8192.Idx) (k : Fin 8192) :
    iblk m c 0 t (ix2 (y 0 : Fin 256) k) = V m c main_arg0 (ix2 ((((cfg0.win 7).blk t).view.emb y) 0 : Fin 4096) k) := by
  obtain ⟨e00, e01, e10, e11, -, -, -, -, -, -, -, -, -, -, -, -⟩ := idx_facts t
  show V m c main_arg0 (((cfg0.win 0).blk t).view.emb (ix2 (y 0 : Fin 256) k)) = _
  refine congrArg (V m c main_arg0) (funext fun a => Fin.ext ?_)
  match a with
  | ⟨0, _⟩ => show win0_0.index t (0 : Fin 2) * 256 + 1 * (y 0).val = win0_7.index t (0 : Fin 2) * 256 + 1 * (y 0).val; rw [e00]
  | ⟨1, _⟩ => show win0_0.index t (1 : Fin 2) * 8192 + 1 * k.val = k.val; rw [e01]; omega

/-- The same for `v`. -/
theorem row_block1 (c : Dev nD) (t : Fin cfg0.N) (y : S256x8192.Idx) (k : Fin 8192) :
    iblk m c 1 t (ix2 (y 0 : Fin 256) k) = V m c main_arg1 (ix2 ((((cfg0.win 7).blk t).view.emb y) 0 : Fin 4096) k) := by
  obtain ⟨e00, e01, e10, e11, -, -, -, -, -, -, -, -, -, -, -, -⟩ := idx_facts t
  show V m c main_arg1 (((cfg0.win 1).blk t).view.emb (ix2 (y 0 : Fin 256) k)) = _
  refine congrArg (V m c main_arg1) (funext fun a => Fin.ext ?_)
  match a with
  | ⟨0, _⟩ => show win0_1.index t (0 : Fin 2) * 256 + 1 * (y 0).val = win0_7.index t (0 : Fin 2) * 256 + 1 * (y 0).val; rw [e10]
  | ⟨1, _⟩ => show win0_1.index t (1 : Fin 2) * 8192 + 1 * k.val = k.val; rw [e11]; omega

/-- The gains are held whole. -/
theorem whole_block2 (c : Dev nD) (t : Fin cfg0.N) : (iblk m c 2 t : Vec Ideal S1x8192 .f32) = V m c main_arg2 := by
  obtain ⟨-, -, -, -, e20, e21, e30, e31, e40, e41, e50, e51, e60, e61, -, -⟩ := idx_facts t
  funext z
  show V m c main_arg2 (((cfg0.win 2).blk t).view.emb z) = V m c main_arg2 z
  refine congrArg (V m c main_arg2) (funext fun a => Fin.ext ?_)
  match a with
  | ⟨0, _⟩ => show win0_2.index t (0 : Fin 2) * 1 + 1 * (z 0).val = (z 0).val; rw [e20]; omega
  | ⟨1, _⟩ => show win0_2.index t (1 : Fin 2) * 8192 + 1 * (z 1).val = (z 1).val; rw [e21]; omega

/-- The encoder is held whole. -/
theorem whole_block3 (c : Dev nD) (t : Fin cfg0.N) : (iblk m c 3 t : Vec Ideal S8192x128 .f32) = V m c main_arg3 := by
  obtain ⟨-, -, -, -, e20, e21, e30, e31, e40, e41, e50, e51, e60, e61, -, -⟩ := idx_facts t
  funext z
  show V m c main_arg3 (((cfg0.win 3).blk t).view.emb z) = V m c main_arg3 z
  refine congrArg (V m c main_arg3) (funext fun a => Fin.ext ?_)
  match a with
  | ⟨0, _⟩ => show win0_3.index t (0 : Fin 2) * 8192 + 1 * (z 0).val = (z 0).val; rw [e30]; omega
  | ⟨1, _⟩ => show win0_3.index t (1 : Fin 2) * 128 + 1 * (z 1).val = (z 1).val; rw [e31]; omega

/-- The encoder's bias row is held whole. -/
theorem whole_block4 (c : Dev nD) (t : Fin cfg0.N) : (iblk m c 4 t : Vec Ideal S1x128 .f32) = V m c main_v0 := by
  obtain ⟨-, -, -, -, e20, e21, e30, e31, e40, e41, e50, e51, e60, e61, -, -⟩ := idx_facts t
  funext z
  show V m c main_v0 (((cfg0.win 4).blk t).view.emb z) = V m c main_v0 z
  refine congrArg (V m c main_v0) (funext fun a => Fin.ext ?_)
  match a with
  | ⟨0, _⟩ => show win0_4.index t (0 : Fin 2) * 1 + 1 * (z 0).val = (z 0).val; rw [e40]; omega
  | ⟨1, _⟩ => show win0_4.index t (1 : Fin 2) * 128 + 1 * (z 1).val = (z 1).val; rw [e41]; omega

/-- The decoder is held whole. -/
theorem whole_block5 (c : Dev nD) (t : Fin cfg0.N) : (iblk m c 5 t : Vec Ideal S128x8192 .f32) = V m c main_arg5 := by
  obtain ⟨-, -, -, -, e20, e21, e30, e31, e40, e41, e50, e51, e60, e61, -, -⟩ := idx_facts t
  funext z
  show V m c main_arg5 (((cfg0.win 5).blk t).view.emb z) = V m c main_arg5 z
  refine congrArg (V m c main_arg5) (funext fun a => Fin.ext ?_)
  match a with
  | ⟨0, _⟩ => show win0_5.index t (0 : Fin 2) * 128 + 1 * (z 0).val = (z 0).val; rw [e50]; omega
  | ⟨1, _⟩ => show win0_5.index t (1 : Fin 2) * 8192 + 1 * (z 1).val = (z 1).val; rw [e51]; omega

/-- The decoder's bias row is held whole. -/
theorem whole_block6 (c : Dev nD) (t : Fin cfg0.N) : (iblk m c 6 t : Vec Ideal S1x8192 .f32) = V m c main_v1 := by
  obtain ⟨-, -, -, -, e20, e21, e30, e31, e40, e41, e50, e51, e60, e61, -, -⟩ := idx_facts t
  funext z
  show V m c main_v1 (((cfg0.win 6).blk t).view.emb z) = V m c main_v1 z
  refine congrArg (V m c main_v1) (funext fun a => Fin.ext ?_)
  match a with
  | ⟨0, _⟩ => show win0_6.index t (0 : Fin 2) * 1 + 1 * (z 0).val = (z 0).val; rw [e60]; omega
  | ⟨1, _⟩ => show win0_6.index t (1 : Fin 2) * 8192 + 1 * (z 1).val = (z 1).val; rw [e61]; omega

/-- Entry j of the held encoder bias row is entry j of the bias vector. -/
theorem benc_block (c : Dev nD) (t : Fin cfg0.N) (j : Fin 128) :
    iblk m c 4 t (ix2 (0 : Fin 1) j) = V m c main_arg4 (ix1 j) :=
  calc iblk m c 4 t (ix2 (0 : Fin 1) j) = V m c main_v0 (ix2 (0 : Fin 1) j) := congrFun (whole_block4 m c t) _
    _ = shapeCast S1x128 (m ((c : Thread nD τ).loc main_arg4)) shapeCasts_S128_S1x128 (ix2 (0 : Fin 1) j) := congrFun (benc_row m c) _
    _ = (m ((c : Thread nD τ).loc main_arg4)) (ix1 j) := shapeCast_a_1a_apply _ shapeCasts_S128_S1x128 0 j
    _ = V m c main_arg4 (ix1 j) := congrFun (V_main_arg4 m c).symm _

/-- Entry q of the held decoder bias row is entry q of the bias vector. -/
theorem bdec_block (c : Dev nD) (t : Fin cfg0.N) (q : Fin 8192) :
    iblk m c 6 t (ix2 (0 : Fin 1) q) = V m c main_arg6 (ix1 q) :=
  calc iblk m c 6 t (ix2 (0 : Fin 1) q) = V m c main_v1 (ix2 (0 : Fin 1) q) := congrFun (whole_block6 m c t) _
    _ = shapeCast S1x8192 (m ((c : Thread nD τ).loc main_arg6)) shapeCasts_S8192_S1x8192 (ix2 (0 : Fin 1) q) := congrFun (bdec_row m c) _
    _ = (m ((c : Thread nD τ).loc main_arg6)) (ix1 q) := shapeCast_a_1a_apply _ shapeCasts_S8192_S1x8192 0 q
    _ = V m c main_arg6 (ix1 q) := congrFun (V_main_arg6 m c).symm _

/-! ## What a point writes back -/

/-- Point `t` writes back its block of the batch function of the arrays as the call finds them. -/
theorem flushed_eq (c : Dev nD) (t : Fin cfg0.N) :
    (dats m 0 c).flushed 7 t = ((cfg0.win 7).blk t).view.read (Elt Ideal)
      (batch (V m c main_arg0) (V m c main_arg1) (V m c main_arg2) (V m c main_arg3) (V m c main_arg4) (V m c main_arg5) (V m c main_arg6)) := by
  rw [Value.flushed7]
  unfold out0_7
  rw [View.canon_unit_zero hz]
  simp only [View.ld_unit_zero (S := S256x8192) hz, View.ld_unit_zero (S := S1x8192) hz, View.ld_unit_zero (S := S8192x128) hz,
    View.ld_unit_zero (S := S1x128) hz, View.ld_unit_zero (S := S128x8192) hz]
  funext y
  obtain ⟨-, -, -, -, -, -, -, -, -, -, -, -, -, -, -, e71⟩ := idx_facts t
  have hcol : ((((cfg0.win 7).blk t).view.emb y) 1 : Fin 8192) = (y 1 : Fin 8192) := Fin.ext (by
    show win0_7.index t (1 : Fin 2) * 8192 + 1 * (y 1).val = (y 1).val
    rw [e71]; omega)
  exact Stored.stored_is_batch (V m c main_arg0) (V m c main_arg1) (V m c main_arg2) (V m c main_arg3) (V m c main_arg4) (V m c main_arg5) (V m c main_arg6)
    (iblk m c 0 t) (iblk m c 2 t) (iblk m c 1 t) (iblk m c 3 t) (iblk m c 4 t) (iblk m c 5 t) (iblk m c 6 t)
    y (((cfg0.win 7).blk t).view.emb y) hcol (row_block0 m c t y) (row_block1 m c t y) (whole_block2 m c t) (whole_block3 m c t)
    (benc_block m c t) (whole_block5 m c t) (bdec_block m c t)

/-! ## The blocks cover the result -/

/-- An index is in point `t`'s block iff each coordinate is in the block's range on its axis. -/
theorem mem_blk (t : Fin cfg0.N) (i : S4096x8192.Idx) :
    i ∈ ((cfg0.win 7).blk t).view.set ↔ ∀ a : Fin 2, win0_7.index t a * S256x8192.size a ≤ (i a).val ∧ (i a).val < win0_7.index t a * S256x8192.size a + S256x8192.size a := by
  show i ∈ ((View.whole main_v2).slice (win0_7.rect t)).set ↔ _
  rw [View.set_slice_whole, Rect.mem_set_unit]
  exact Iff.rfl

/-- Row `r` of the result lies in the block of point `r / 256`. -/
theorem cover (i : S4096x8192.Idx) : ∃ t : Fin cfg0.N, (cfg0.win 7).flush t = true ∧ i ∈ ((cfg0.win 7).blk t).view.set := by
  have hi0 : (i 0).val < 4096 := (i 0).isLt
  have hi1 : (i 1).val < 8192 := (i 1).isLt
  have hN : grid0.N = 16 := N_0
  obtain ⟨t, ht⟩ : ∃ t : Fin cfg0.N, t.val = (i 0).val / 256 :=
    ⟨⟨(i 0).val / 256, by show (i 0).val / 256 < grid0.N; rw [hN]; omega⟩, rfl⟩
  obtain ⟨-, -, -, -, -, -, -, -, -, -, -, -, -, -, e70, e71⟩ := idx_facts t
  refine ⟨t, flush0_7 t, ?_⟩
  rw [mem_blk]
  intro a
  match a with
  | ⟨0, _⟩ => show win0_7.index t (0 : Fin 2) * 256 ≤ (i 0).val ∧ (i 0).val < win0_7.index t (0 : Fin 2) * 256 + 256; rw [e70, ht]; omega
  | ⟨1, _⟩ => show win0_7.index t (1 : Fin 2) * 8192 ≤ (i 1).val ∧ (i 1).val < win0_7.index t (1 : Fin 2) * 8192 + 8192; rw [e71]; omega

/-! ## The result after the run -/

/-- The result array ends as the batch function of the seven arguments. -/
theorem final (c : Dev nD) : (dats m 0 c).arrAt 7 cfg0.N = batch (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [(dats m 0 c).arrAt_eq_of_cover 7 (batch (V m c main_arg0) (V m c main_arg1) (V m c main_arg2) (V m c main_arg3) (V m c main_arg4) (V m c main_arg5) (V m c main_arg6)) (fun t _ => flushed_eq m c t) cover]
  rw [V_main_arg0 m c, V_main_arg1 m c, V_main_arg2 m c, V_main_arg3 m c, V_main_arg4 m c, V_main_arg5 m c, V_main_arg6 m c]

/-- Every weakly fair execution of the program terminates with the result at the batch function of the arguments and
    the arguments unchanged. -/
theorem run : θ_run defs (onTc (τ := τ) (main (F := Ideal))) ⟨m, fun _ => 0, ρ⟩ fun r => ∀ c : Dev nD,
      r.2.mem ((c : Thread nD τ).loc main_v2) = batch (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Batch

end
-- ==== Proof.ReferenceRows.lean ====
/-
  The reference computes the batch function.

  Read one operation at a time, the reference gates the whole 4096-row batch, multiplies it by the encoder, adds
  the encoder's bias (laid out as a row and repeated down the batch), clamps at zero, multiplies by the decoder and
  adds the decoder's bias. Each product is the sum over its one contracted axis, so entry (p, q) of the result
  depends on row p of the two batch inputs only, and is output column q of the row function at that row.
-/
import proofs.«177236_g13572096656070_cont_week2b_785_2_alg».proof.Proof.Gen.ReferenceIdeal.Read
import proofs.«177236_g13572096656070_cont_week2b_785_2_alg».proof.Proof.RowSpec

noncomputable section

namespace Cert.ReferenceIdeal.Rows

open Cert.ReferenceIdeal Cert.ReferenceIdeal.Read Idealize.ShloMosaic Idealize.ShloMosaic.TcCoe Idealize.SL.Sem
open Idealize.ShloMosaic.ValueIdx Cert.GatedAutoencoder

/-! ## The operations' index maps at an entry given by its coordinates -/

/-- The decoder product at output (p, q), contraction index j, reads the hidden batch at (p, j) -/
theorem dec_left (p : Fin 4096) (q : Fin 8192) (j : Fin 128) : lidx_main_v8 (ix2 p q) j = ix2 p j :=
  funext fun a => by match a with | ⟨0, _⟩ => rfl | ⟨1, _⟩ => rfl
/-- and the decoder at (j, q). -/
theorem dec_right (p : Fin 4096) (q : Fin 8192) (j : Fin 128) : ridx_main_v8 (ix2 p q) j = ix2 j q :=
  funext fun a => by match a with | ⟨0, _⟩ => rfl | ⟨1, _⟩ => rfl
/-- The encoder product at output (p, j), contraction index k, reads the gated batch at (p, k) -/
theorem enc_left (p : Fin 4096) (j : Fin 128) (k : Fin 8192) : lidx_main_v3 (ix2 p j) k = ix2 p k :=
  funext fun a => by match a with | ⟨0, _⟩ => rfl | ⟨1, _⟩ => rfl
/-- and the encoder at (k, j). -/
theorem enc_right (p : Fin 4096) (j : Fin 128) (k : Fin 8192) : ridx_main_v3 (ix2 p j) k = ix2 k j :=
  funext fun a => by match a with | ⟨0, _⟩ => rfl | ⟨1, _⟩ => rfl
/-- The gain row repeated down the batch reads, at (p, k), the row's entry k. -/
theorem gain_at (p : Fin 4096) (k : Fin 8192) : idx_main_v0 (ix2 p k) = ix2 (0 : Fin 1) k :=
  funext fun a => by match a with | ⟨0, _⟩ => rfl | ⟨1, _⟩ => rfl
/-- The encoder's bias, laid out as a row and repeated down the batch, reads at (p, j) the bias's entry j. -/
theorem benc_at (p : Fin 4096) (j : Fin 128) : idx_main_v4 (idx_main_v5 (ix2 p j)) = ix1 j :=
  funext fun a => by match a with | ⟨0, _⟩ => rfl
/-- The decoder's bias likewise reads at (p, q) its entry q. -/
theorem bdec_at (p : Fin 4096) (q : Fin 8192) : idx_main_v9 (idx_main_v10 (ix2 p q)) = ix1 q :=
  funext fun a => by match a with | ⟨0, _⟩ => rfl

/-! ## The stages at an entry -/

/-- The gated batch at (p, k). -/
theorem gated_entry (x0 x1 : FVec Ideal S4096x8192 .f32) (x2 : FVec Ideal S1x8192 .f32) (p : Fin 4096) (k : Fin 8192) :
    val_main_v2 (F := Ideal) x0 x1 x2 (ix2 p k) = x0 (ix2 p k) + x2 (ix2 (0 : Fin 1) k) * x1 (ix2 p k) := by
  rw [val_main_v2_apply, val_main_v1_apply, val_main_v0_apply, gain_at p k]
  rfl

/-- The hidden batch at (p, j) is hidden unit j of row p. -/
theorem hidden_entry (x0 x1 : FVec Ideal S4096x8192 .f32) (x2 : FVec Ideal S1x8192 .f32) (x3 : FVec Ideal S8192x128 .f32)
    (x4 : FVec Ideal S128 .f32) (p : Fin 4096) (j : Fin 128) :
    val_main_v7 (F := Ideal) x0 x1 x2 x3 x4 (ix2 p j)
      = hiddenUnit (fun k => x0 (ix2 p k)) (fun k => x1 (ix2 p k)) x2 x3 (fun j => x4 (ix1 j)) j := by
  rw [val_main_v7_apply, val_main_v6_apply, val_main_v3_apply, val_main_v5_apply, val_main_v4_apply, benc_at p j,
    val_main_call0_v0_apply, val_main_call0_cst_apply]
  unfold hiddenUnit
  show max ((∑ k : Fin 8192, val_main_v2 (F := Ideal) x0 x1 x2 (lidx_main_v3 (ix2 p j) k) * x3 (ridx_main_v3 (ix2 p j) k)) + x4 (ix1 j))
      (Ideal.ofBits .f32 0x00000000#32) = _
  refine congrArg (fun s => max (s + x4 (ix1 j)) (Ideal.ofBits .f32 0x00000000#32)) (Finset.sum_congr rfl fun k _ => ?_)
  rw [enc_left p j k, enc_right p j k, gated_entry x0 x1 x2 p k]

/-- The reference's result is the batch function of its seven arguments. -/
theorem result_eq (x0 x1 : FVec Ideal S4096x8192 .f32) (x2 : FVec Ideal S1x8192 .f32) (x3 : FVec Ideal S8192x128 .f32)
    (x4 : FVec Ideal S128 .f32) (x5 : FVec Ideal S128x8192 .f32) (x6 : FVec Ideal S8192 .f32) :
    val_main_v11 (F := Ideal) x0 x1 x2 x3 x4 x5 x6 = batch x0 x1 x2 x3 x4 x5 x6 := by
  funext i
  obtain ⟨p, q, rfl⟩ : ∃ (p : Fin 4096) (q : Fin 8192), i = ix2 p q := ⟨i 0, i 1, eq_ix2 i⟩
  rw [batch_ix2, val_main_v11_apply, val_main_v8_apply, val_main_v10_apply, val_main_v9_apply, bdec_at p q]
  unfold outRow
  show (∑ j : Fin 128, val_main_v7 (F := Ideal) x0 x1 x2 x3 x4 (lidx_main_v8 (ix2 p q) j) * x5 (ridx_main_v8 (ix2 p q) j)) + x6 (ix1 q) = _
  refine congrArg (· + x6 (ix1 q)) (Finset.sum_congr rfl fun j _ => ?_)
  rw [dec_left p q j, dec_right p q j, hidden_entry x0 x1 x2 x3 x4 p j]

end Cert.ReferenceIdeal.Rows

end
-- ==== Proof.lean ====
/-
  A gated autoencoder computed block by block is the one computed on the whole batch.

  Both programs compute, for each of 4096 rows, `max ((x + g · v) · Wenc + benc) 0 · Wdec + bdec`: the kernel on
  sixteen blocks of 256 rows, each block's two matrix products accumulated from zero on the TensorCore; the reference
  on the whole batch with the host's matrix products. At exact arithmetic each product entry is the sum over the
  contracted axis of row times column on both sides, and an output row depends on its own input row only, so both
  results are one function of the seven arguments, the batch function (Proof/RowSpec.lean): the kernel's by reading
  what each grid point writes back and covering the result with the sixteen blocks (Proof/StoredRows.lean,
  Proof/BlocksToBatch.lean), the reference's by reading its operations one at a time (Proof/ReferenceRows.lean). No
  law of arithmetic is used beyond the two sides being the same expression, so the inputs' finiteness is not needed.
  The idealized kernel is the kernel's own text read at exact arithmetic (no operation was rewritten), and the three
  frames are the generated ones, the reference's being its generated run with the result dropped.
-/
import proofs.«177236_g13572096656070_cont_week2b_785_2_alg».proof.Defs
import proofs.«177236_g13572096656070_cont_week2b_785_2_alg».proof.Proof.Gen.Kernel
import proofs.«177236_g13572096656070_cont_week2b_785_2_alg».proof.Proof.Gen.Kernel.Frame
import proofs.«177236_g13572096656070_cont_week2b_785_2_alg».proof.Proof.Gen.KernelIdeal
import proofs.«177236_g13572096656070_cont_week2b_785_2_alg».proof.Proof.Gen.KernelIdeal.Frame
import proofs.«177236_g13572096656070_cont_week2b_785_2_alg».proof.Proof.Gen.KernelIdeal.Value
import proofs.«177236_g13572096656070_cont_week2b_785_2_alg».proof.Proof.Gen.ReferenceIdeal
import proofs.«177236_g13572096656070_cont_week2b_785_2_alg».proof.Proof.Gen.ReferenceIdeal.Run
import proofs.«177236_g13572096656070_cont_week2b_785_2_alg».proof.Proof.Gen.ReferenceIdeal.Read
import proofs.«177236_g13572096656070_cont_week2b_785_2_alg».proof.Proof.Gen.Pre_finite_inputs
import proofs.«177236_g13572096656070_cont_week2b_785_2_alg».proof.Proof.BlocksToBatch
import proofs.«177236_g13572096656070_cont_week2b_785_2_alg».proof.Proof.ReferenceRows
import Idealize.ShloMosaic.Adequacy
import Idealize.ShloMosaic.Init

noncomputable section

namespace Cert.Proof

open Idealize.ShloMosaic Idealize.SL.Sem Cert.GatedAutoencoder

/-- The kernel at the word level runs and leaves its arguments unchanged. -/
theorem frame_kernel : Cert.frame_Kernel := fun m ρ _ => Cert.Kernel.Gen.frame m ρ

/-- So does the kernel at exact arithmetic. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to exact arithmetic, so there is nothing to preserve. -/
theorem preserves : Cert.preserves_Kernel_KernelIdeal := trivial

/-- From memories that agree on the seven arguments both programs end with the batch function of those arguments as
    their result: the kernel by its blocks, the reference by its operations. -/
theorem algebraic : Cert.algebraic_KernelIdeal_ReferenceIdeal := by
  intro m ρ m' ρ' _ hagree
  refine ⟨fun c => batch
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Batch.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.Rows.result_eq,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
